-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 86
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's whole run with its result named.

  @main is seven segments: three stretches of host operations (the edge lists, the degree count and its inverse square
  root, the edge weights), the first dense layer as a pipelined region, the hidden layer's message-passing step on
  the host, the second dense layer as a pipelined region, and the output layer's message-passing step on the host.
  The buffer contents at the segment boundaries are a fold from the launch memory (`Gen.W0` … `Gen.W7`): a host stretch
  applies its operations, a region replaces its arrays by what its write-backs leave. Every weakly fair execution
  terminates without a fault with every unscoped buffer at the last boundary's contents `Gen.W7`; read at the result
  buffer this names the result, and read at the six arguments it gives them back unchanged.
-/
import proofs.«139008_j45938970198799_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the six argument arrays as launched. -/
theorem run_named : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.Aggregate.lean ====
/-
  One message-passing step of the graph convolution, as a function of the values that enter it.

  For node features `h : [100000, C]`, an edge weight `nrm : [1700000]`, the edges' source and destination node
  numbers `s d : [1700000]` (the 1600000 given edges followed by the 100000 self loops) and a bias `b : [C]`:
  a source number is first read from the end when negative (`s < 0 ↦ s + 100000`), row `s e` of `h` is gathered
  for every edge `e` and scaled by `nrm e`, the scaled rows are summed into row `d e` of a zero array, and the bias is
  added to every row. `agg128` is the step at `C = 128` (the hidden layer) and `agg64` the step at `C = 64` (the
  output layer). Both programs apply exactly these operations; the certificate never looks inside the gather or
  the scatter-add: it shows that the same `h`, `nrm`, `s`, `d`, `b` enter them on both sides.
-/
import proofs.«139008_j45938970198799_1_alg».proof.Proof.Gen.ReferenceIdeal
import Idealize.ShloMosaic.PureOps.Ideal

noncomputable section

namespace Cert.Gcn

open Idealize.ShloMosaic Cert.ReferenceIdeal Cert.ReferenceIdeal.Gen

/-- A float array of shape `s` at the extended reals. -/
abbrev FArr (s : Shape) : Type := (⟨s, .f32⟩ : BufTy).Contents (Elt Ideal)
/-- An array of 32-bit node numbers of shape `s`. -/
abbrev NArr (s : Shape) : Type := (⟨s, .i32⟩ : BufTy).Contents (Elt Ideal)

/-- The hidden layer's step: `out p = b + ∑ over edges e with d e = p of nrm e · h (s e)`, 128 columns. -/
def agg128 (h : FArr S100000x128) (nrm : FArr S1700000) (s d : NArr S1700000) (b : FArr S128) : FArr S100000x128 :=
  addf
    (Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 d)
      (mulf
        (Host.gather gather_S100000x128_S1700000x1_S1700000x128_1_0_n_n_0_1_1128 h
          (broadcastInDim S1700000x1 ![0] bcast_S1700000_S1700000x1_0
            (select (cmpi .slt s (broadcastInDim S1700000 ![] bcast_S_S1700000 (constantI S_ 32 0#32)))
              (addi s (broadcastInDim S1700000 ![] bcast_S_S1700000 (constantI S_ 32 100000#32))) s)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The output layer's step: the same with 64 columns. -/
def agg64 (h : FArr S100000x64) (nrm : FArr S1700000) (s d : NArr S1700000) (b : FArr S64) : FArr S100000x64 :=
  addf
    (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 d)
      (mulf
        (Host.gather gather_S100000x64_S1700000x1_S1700000x64_1_0_n_n_0_1_164 h
          (broadcastInDim S1700000x1 ![0] bcast_S1700000_S1700000x1_0
            (select (cmpi .slt s (broadcastInDim S1700000 ![] bcast_S_S1700000 (constantI S_ 32 0#32)))
              (addi s (broadcastInDim S1700000 ![] bcast_S_S1700000 (constantI S_ 32 100000#32))) s)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

end Cert.Gcn

end
-- ==== Proof.KernelHost.lean ====
/-
  The idealized kernel's host stretches, read where the value needs them.

  Between the two pipelined regions and after the second one the host applies one message-passing step: from ANY
  contents `U` of the buffers when the stretch is entered, its result buffer ends at the step (`agg128`, `agg64`) of the
  features, edge weights, edge lists and bias that `U` holds. Everything else the value needs is carried: a stretch
  keeps every buffer it does not write, and a region keeps every buffer that is not one of its three arrays. So the
  edge lists and edge weights computed before the first region reach both steps unchanged, and the weight matrices and
  biases are still the launch contents wherever they are read.
-/
import proofs.«139008_j45938970198799_1_alg».proof.Proof.Gen.KernelIdeal.Frame
import proofs.«139008_j45938970198799_1_alg».proof.Proof.Aggregate

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gcn

/-! ## The two message-passing stretches, from any entry contents -/

set_option maxHeartbeats 8000000 in
/-- The hidden layer's step: the stretch between the regions, read at its result. -/
theorem hidden_stretch (U : Valuation τ sig (Elt Ideal)) :
    StableHlo.after (hostOps1 (F := Ideal)) U (Proc.devRef .tc main_v46)
      = agg128 (U (Proc.devRef .tc main_v30)) (U (Proc.devRef .tc main_v29)) (U (Proc.devRef .tc main_v3))
          (U (Proc.devRef .tc main_v6)) (U (Proc.devRef .tc main_arg3)) := by
  simp only [hostOps1]
  after_results_simp
  rfl

set_option maxHeartbeats 8000000 in
/-- The output layer's step: the stretch after the second region, read at the program's result. -/
theorem output_stretch (U : Valuation τ sig (Elt Ideal)) :
    StableHlo.after (hostOps2 (F := Ideal)) U (Proc.devRef .tc main_v63)
      = agg64 (U (Proc.devRef .tc main_v47)) (U (Proc.devRef .tc main_v29)) (U (Proc.devRef .tc main_v3))
          (U (Proc.devRef .tc main_v6)) (U (Proc.devRef .tc main_arg5)) := by
  simp only [hostOps2]
  after_results_simp
  rfl

/-! ## What is carried -/

/-- A stretch keeps a buffer none of its operations writes: each operation's one result buffer is another reference. -/
local macro "keeps% " ops:ident : term => `(StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

variable (m : (ℓ : Loc nD τ sig) → Buf (Elt Ideal) ℓ) (ρ : Dev nD → PrngReg)

/-- The three stretches before the first region write none of the float arguments. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := keeps% hostOps0_2
    _ = W1 m ρ c (Proc.devRef .tc main_arg0) := keeps% hostOps0_1
    _ = W0 m ρ c (Proc.devRef .tc main_arg0) := keeps% hostOps0
    _ = m ((c : Thread nD τ).loc main_arg0) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := keeps% hostOps0_2
    _ = W1 m ρ c (Proc.devRef .tc main_arg2) := keeps% hostOps0_1
    _ = W0 m ρ c (Proc.devRef .tc main_arg2) := keeps% hostOps0
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := keeps% hostOps0_2
    _ = W1 m ρ c (Proc.devRef .tc main_arg3) := keeps% hostOps0_1
    _ = W0 m ρ c (Proc.devRef .tc main_arg3) := keeps% hostOps0
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := keeps% hostOps0_2
    _ = W1 m ρ c (Proc.devRef .tc main_arg4) := keeps% hostOps0_1
    _ = W0 m ρ c (Proc.devRef .tc main_arg4) := keeps% hostOps0
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := keeps% hostOps0_2
    _ = W1 m ρ c (Proc.devRef .tc main_arg5) := keeps% hostOps0_1
    _ = W0 m ρ c (Proc.devRef .tc main_arg5) := keeps% hostOps0
    _ = m ((c : Thread nD τ).loc main_arg5) := rfl

/-- The first bias is still the launch contents when the hidden layer's step reads it (the first region writes only
    its own output array). -/
theorem W4_arg3 (c : Dev nD) : W4 m ρ c (Proc.devRef .tc main_arg3) = m ((c : Thread nD τ).loc main_arg3) :=
  (W4_of_ne m ρ c main_arg3 (by decide)).trans (W3_arg3 m ρ c)

/-- The second weight matrix is still the launch contents when the second region is entered. -/
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := keeps% hostOps1
    _ = W3 m ρ c (Proc.devRef .tc main_arg4) := W4_of_ne m ρ c main_arg4 (by decide)
    _ = m ((c : Thread nD τ).loc main_arg4) := W3_arg4 m ρ c

/-- The second bias is still the launch contents when the output layer's step reads it. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keeps% hostOps1
    _ = W3 m ρ c (Proc.devRef .tc main_arg5) := W4_of_ne m ρ c main_arg5 (by decide)
    _ = m ((c : Thread nD τ).loc main_arg5) := W3_arg5 m ρ c

/-- The edge weights, and the two edge lists, computed before the first region: what the hidden layer's step reads
    (after the first region) and what the output layer's step reads (after the second) are those. -/
theorem W4_v29 (c : Dev nD) : W4 m ρ c (Proc.devRef .tc main_v29) = W3 m ρ c (Proc.devRef .tc main_v29) :=
  W4_of_ne m ρ c main_v29 (by decide)
theorem W4_v3 (c : Dev nD) : W4 m ρ c (Proc.devRef .tc main_v3) = W3 m ρ c (Proc.devRef .tc main_v3) :=
  W4_of_ne m ρ c main_v3 (by decide)
theorem W4_v6 (c : Dev nD) : W4 m ρ c (Proc.devRef .tc main_v6) = W3 m ρ c (Proc.devRef .tc main_v6) :=
  W4_of_ne m ρ c main_v6 (by decide)
theorem W6_v29 (c : Dev nD) : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := keeps% hostOps1
    _ = W3 m ρ c (Proc.devRef .tc main_v29) := W4_v29 m ρ c
theorem W6_v3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := keeps% hostOps1
    _ = W3 m ρ c (Proc.devRef .tc main_v3) := W4_v3 m ρ c
theorem W6_v6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := keeps% hostOps1
    _ = W3 m ρ c (Proc.devRef .tc main_v6) := W4_v6 m ρ c

end Cert.KernelIdeal.Whole

end
-- ==== Proof.KernelEdges.lean ====
/-
  The idealized kernel's edge data are the reference's.

  Before its first region the kernel's host code builds, from the edge-list argument alone, the source and destination
  node numbers of the 1700000 edges (the given edges followed by the self loops), counts each node's incoming edges,
  takes the inverse square root of the count where it is positive (zero elsewhere), and multiplies the two end points'
  factors into one weight per edge. The reference applies the same operations in the same order to the same argument.
  The kernel's code comes in three stretches — the lists, the count, its positivity mask and its inverse square root;
  the selection of the factor; the two gathers and their product — and each is read from ANY contents of the buffers
  at its entry, so the three compose by substitution and nothing large is ever compared with anything large.
-/
import proofs.«139008_j45938970198799_1_alg».proof.Proof.Gen.KernelIdeal.Frame
import proofs.«139008_j45938970198799_1_alg».proof.Proof.RefRead
import proofs.«139008_j45938970198799_1_alg».proof.Proof.Aggregate

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gcn
open Cert.ReferenceIdeal.ReadP (val_main_v3 val_main_v6 val_main_v13 val_main_v14 val_main_cst_2 val_main_v30)

/-- A node's factor: the inverse square root of its degree where the degree is positive (`mask`), the constant `z`
    elsewhere. -/
def factor (mask : (⟨S100000, .i1⟩ : BufTy).Contents (Elt Ideal)) (r : FArr S100000) (z : FArr S_) : FArr S100000 :=
  select mask r (broadcastInDim S100000 ![] bcast_S_S100000 (id z))

/-- An edge's weight: the product of its two end points' factors, an end point's node number read from the end when
    negative. -/
def weights (f : FVec Ideal S100000 .f32) (s d : IVec S1700000 32) : FVec Ideal S1700000 .f32 :=
  mulf (F := Ideal)
    (Host.gather gather_S100000_S1700000x1_S1700000_n_0_n_n_0_1_1 f
      (broadcastInDim S1700000x1 ![0] bcast_S1700000_S1700000x1_0
        (select (cmpi .slt s (broadcastInDim S1700000 ![] bcast_S_S1700000 (constantI S_ 32 0#32)))
          (addi s (broadcastInDim S1700000 ![] bcast_S_S1700000 (constantI S_ 32 100000#32))) s)))
    (Host.gather gather_S100000_S1700000x1_S1700000_n_0_n_n_0_1_1 f
      (broadcastInDim S1700000x1 ![0] bcast_S1700000_S1700000x1_0
        (select (cmpi .slt d (broadcastInDim S1700000 ![] bcast_S_S1700000 (constantI S_ 32 0#32)))
          (addi d (broadcastInDim S1700000 ![] bcast_S_S1700000 (constantI S_ 32 100000#32))) d)))

/-- The reference's edge weights are the weights of its own factor and lists. -/
theorem ref_weights (x1 : NArr S2x1600000) :
    weights (factor (val_main_v13 (F := Ideal) x1) (val_main_v14 (F := Ideal) x1) (val_main_cst_2 (F := Ideal)))
        (val_main_v3 (F := Ideal) x1) (val_main_v6 (F := Ideal) x1)
      = val_main_v30 (F := Ideal) x1 := rfl

/-! ## The first stretch: the lists, the degree's mask and inverse square root, the zero -/

set_option maxHeartbeats 2000000 in
theorem lists_src (U : Valuation τ sig (Elt Ideal)) :
    StableHlo.after (hostOps0 (F := Ideal)) U (Proc.devRef .tc main_v3)
      = val_main_v3 (F := Ideal) (U (Proc.devRef .tc main_arg1)) := by
  simp only [hostOps0]; after_results_simp; rfl

set_option maxHeartbeats 2000000 in
theorem lists_dst (U : Valuation τ sig (Elt Ideal)) :
    StableHlo.after (hostOps0 (F := Ideal)) U (Proc.devRef .tc main_v6)
      = val_main_v6 (F := Ideal) (U (Proc.devRef .tc main_arg1)) := by
  simp only [hostOps0]; after_results_simp; rfl

set_option maxHeartbeats 2000000 in
theorem degree_mask (U : Valuation τ sig (Elt Ideal)) :
    StableHlo.after (hostOps0 (F := Ideal)) U (Proc.devRef .tc main_v12)
      = val_main_v13 (F := Ideal) (U (Proc.devRef .tc main_arg1)) := by
  simp only [hostOps0]; after_results_simp; rfl

set_option maxHeartbeats 2000000 in
theorem degree_rsqrt (U : Valuation τ sig (Elt Ideal)) :
    StableHlo.after (hostOps0 (F := Ideal)) U (Proc.devRef .tc main_v13)
      = val_main_v14 (F := Ideal) (U (Proc.devRef .tc main_arg1)) := by
  simp only [hostOps0]; after_results_simp; rfl

set_option maxHeartbeats 2000000 in
theorem the_zero (U : Valuation τ sig (Elt Ideal)) :
    StableHlo.after (hostOps0 (F := Ideal)) U (Proc.devRef .tc main_cst_2) = val_main_cst_2 (F := Ideal) := by
  simp only [hostOps0]; after_results_simp; rfl

/-! ## The second stretch: the factor selected -/

set_option maxHeartbeats 2000000 in
/-- The selection reads its three operands where the stretch found them; the buffers' contents pass to and from the
    operation's types unchanged. -/
theorem factor_stretch (U : Valuation τ sig (Elt Ideal)) :
    StableHlo.after (hostOps0_1 (F := Ideal)) U (Proc.devRef .tc main_v14)
      = factor (U (Proc.devRef .tc main_v12)) (U (Proc.devRef .tc main_v13)) (U (Proc.devRef .tc main_cst_2)) := by
  simp only [hostOps0_1]; after_results_simp; rfl

/-! ## The third stretch: the two gathers and their product -/

set_option maxHeartbeats 2000000 in
theorem weights_stretch (U : Valuation τ sig (Elt Ideal)) :
    StableHlo.after (hostOps0_2 (F := Ideal)) U (Proc.devRef .tc main_v29)
      = weights (U (Proc.devRef .tc main_v14)) (U (Proc.devRef .tc main_v3)) (U (Proc.devRef .tc main_v6)) := by
  simp only [hostOps0_2]; after_results_simp; rfl

/-! ## The three composed, at the first region's entry -/

/-- A stretch keeps a buffer none of its operations writes. -/
local macro "keeps% " ops:ident : term => `(StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

variable (m : (ℓ : Loc nD τ sig) → Buf (Elt Ideal) ℓ) (ρ : Dev nD → PrngReg)

/-- The source list at the first region's entry is the reference's stage of the edge-list argument. -/
theorem src_at_entry (c : Dev nD) :
    W3 m ρ c (Proc.devRef .tc main_v3) = val_main_v3 (F := Ideal) (m ((c : Thread nD τ).loc main_arg1)) :=
  calc W3 m ρ c (Proc.devRef .tc main_v3)
    _ = W2 m ρ c (Proc.devRef .tc main_v3) := keeps% hostOps0_2
    _ = W1 m ρ c (Proc.devRef .tc main_v3) := keeps% hostOps0_1
    _ = val_main_v3 (F := Ideal) (m ((c : Thread nD τ).loc main_arg1)) := lists_src (W0 m ρ c)

/-- The destination list at the first region's entry, likewise. -/
theorem dst_at_entry (c : Dev nD) :
    W3 m ρ c (Proc.devRef .tc main_v6) = val_main_v6 (F := Ideal) (m ((c : Thread nD τ).loc main_arg1)) :=
  calc W3 m ρ c (Proc.devRef .tc main_v6)
    _ = W2 m ρ c (Proc.devRef .tc main_v6) := keeps% hostOps0_2
    _ = W1 m ρ c (Proc.devRef .tc main_v6) := keeps% hostOps0_1
    _ = val_main_v6 (F := Ideal) (m ((c : Thread nD τ).loc main_arg1)) := lists_dst (W0 m ρ c)

/-- The edge weights at the first region's entry are the reference's. -/
theorem weights_at_entry (c : Dev nD) :
    W3 m ρ c (Proc.devRef .tc main_v29) = val_main_v30 (F := Ideal) (m ((c : Thread nD τ).loc main_arg1)) := by
  have h3 : W3 m ρ c (Proc.devRef .tc main_v29) = _ := weights_stretch (W2 m ρ c)
  have h2 : W2 m ρ c (Proc.devRef .tc main_v14) = _ := factor_stretch (W1 m ρ c)
  have s2 : W2 m ρ c (Proc.devRef .tc main_v3) = W1 m ρ c (Proc.devRef .tc main_v3) := keeps% hostOps0_1
  have d2 : W2 m ρ c (Proc.devRef .tc main_v6) = W1 m ρ c (Proc.devRef .tc main_v6) := keeps% hostOps0_1
  have s1 : W1 m ρ c (Proc.devRef .tc main_v3) = val_main_v3 (F := Ideal) (m ((c : Thread nD τ).loc main_arg1)) :=
    lists_src (W0 m ρ c)
  have d1 : W1 m ρ c (Proc.devRef .tc main_v6) = val_main_v6 (F := Ideal) (m ((c : Thread nD τ).loc main_arg1)) :=
    lists_dst (W0 m ρ c)
  have k1 : W1 m ρ c (Proc.devRef .tc main_v12) = val_main_v13 (F := Ideal) (m ((c : Thread nD τ).loc main_arg1)) :=
    degree_mask (W0 m ρ c)
  have r1 : W1 m ρ c (Proc.devRef .tc main_v13) = val_main_v14 (F := Ideal) (m ((c : Thread nD τ).loc main_arg1)) :=
    degree_rsqrt (W0 m ρ c)
  have z1 : W1 m ρ c (Proc.devRef .tc main_cst_2) = val_main_cst_2 (F := Ideal) := the_zero (W0 m ρ c)
  rw [h3, h2, s2, d2, s1, d1, k1, r1, z1]
  exact ref_weights _

end Cert.KernelIdeal.Whole

end
-- ==== Proof.Dense.lean ====
/-
  The two dense layers of the graph convolution, as whole-array functions on the extended reals.

  `hidden x w` is the product `x · w` of the node features `x : [100000, 128]` with the first weight matrix
  `w : [128, 128]`: entry `(p, q)` is `∑ k, x (p, k) * w (k, q)` over the 128 shared coordinates.
  `reluOut y w` is `relu(y) · w` for the first layer's output `y : [100000, 128]` and the second weight matrix
  `w : [128, 64]`: entry `(p, q)` is `∑ k, max (y (p, k)) 0 * w (k, q)`, the maximum taken entry by entry against the
  zero word before the product. A row of either result depends on the same row of the left operand only, so the
  functions restrict to any band of rows: this is what lets a row-tiled computation be compared with them.
-/
import Idealize.ShloMosaic.Lib.ValueIdx
import Idealize.ShloMosaic.PureOps.Ideal

noncomputable section

namespace Cert.Gcn

open Idealize.ShloMosaic Idealize.ShloMosaic.ValueIdx

/-- `x · w`, entry by entry: row `p` of `x` against column `q` of `w`. -/
def hidden (x : FVec Ideal ⟨2, ![100000, 128]⟩ .f32) (w : FVec Ideal ⟨2, ![128, 128]⟩ .f32) :
    FVec Ideal ⟨2, ![100000, 128]⟩ .f32 :=
  fun i => ∑ k : Fin 128, x (ix2 (i 0) k) * w (ix2 k (i 1))

theorem hidden_apply (x : FVec Ideal ⟨2, ![100000, 128]⟩ .f32) (w : FVec Ideal ⟨2, ![128, 128]⟩ .f32)
    (p : Fin 100000) (q : Fin 128) :
    hidden x w (ix2 p q) = ∑ k : Fin 128, x (ix2 p k) * w (ix2 k q) := rfl

/-- `relu(y) · w`, entry by entry: the positive part of row `p` of `y` against column `q` of `w`. -/
def reluOut (y : FVec Ideal ⟨2, ![100000, 128]⟩ .f32) (w : FVec Ideal ⟨2, ![128, 64]⟩ .f32) :
    FVec Ideal ⟨2, ![100000, 64]⟩ .f32 :=
  fun i => ∑ k : Fin 128,
    FloatOps.maximumf (y (ix2 (i 0) k)) (Scalar.ofBits (F := Ideal) .f32 0x00000000#32) * w (ix2 k (i 1))

theorem reluOut_apply (y : FVec Ideal ⟨2, ![100000, 128]⟩ .f32) (w : FVec Ideal ⟨2, ![128, 64]⟩ .f32)
    (p : Fin 100000) (q : Fin 64) :
    reluOut y w (ix2 p q) = ∑ k : Fin 128,
      FloatOps.maximumf (y (ix2 p k)) (Scalar.ofBits (F := Ideal) .f32 0x00000000#32) * w (ix2 k q) := rfl

end Cert.Gcn

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.Region0.lean ====
/-
  The first dense layer, tile by tile. The region computes the product of the node features `x : [100000, 128]` with the
  weights `w : [128, 128]` in 20 bands of 5000 rows: at each point it multiplies one band of `x` by the whole of `w` and
  writes the result to the same band of the output. Entry `(p, q)` of `x · w` is `∑ k, x (p, k) * w (k, q)`, which reads row
  `p` of `x` and nothing else of it, so a band of rows of the product is the product of that band of rows; the bands tile
  the rows (row `i` lies in band `i / 5000`), hence the output array ends holding the whole product.
-/
import proofs.«139008_j45938970198799_1_alg».proof.Proof.Gen.KernelIdeal.Frame
import proofs.«139008_j45938970198799_1_alg».proof.Proof.Dense
import proofs.«139008_j45938970198799_1_alg».proof.Proof.LibPlainProduct
import Idealize.ShloMosaic.Lib.Pipeline.Value

set_option maxRecDepth 16384

noncomputable section

namespace Cert.KernelIdeal.Tiles

open Idealize.ShloMosaic Idealize.ShloMosaic.TcCoe Idealize.ShloMosaic.ValueIdx Idealize.SL.Sem Cert.KernelIdeal Cert.KernelIdeal.Gen
open Idealize.ShloMosaic.Pipeline (Dat Cfg Window)

/-- The offsets of a whole-block access, however the two zeros are spelt. -/
theorem zero_offsets : (![0, 0] : Fin 2 → Nat) = fun _ => 0 := funext fun a => by fin_cases a <;> rfl

/-- The block indices over the 20 points: the row band of the left operand is the row band of the result, the right
    operand's block is the whole matrix at every point, no block moves along the columns, and the bands stay in range. -/
theorem band_index0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row bands is some point's. -/
theorem band_onto0 : ∀ q : Fin 20, ∃ t : Fin cfg0.N, win0_2.index t = ![q.val, 0] :=
  (by decide +kernel : ∀ q : Fin 20, ∃ t : Fin grid0.N, win0_2.index t = ![q.val, 0])

/-- One tile's product at `(r, q)`: row `r` of the band against column `q` of the weights. -/
theorem tile_product0 (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  exact matmul_zero_plain_apply dot_S5000x128_S128x128_S5000x128_1_0_0_1_n_n rfl rfl rfl rfl rfl rfl none _ _ r q

/-- Row `r` of the left operand's band at point `t` is row `5000 · band + r` of the array. -/
theorem rows_block0 (V : (c : Dev nD) → (b : Ref sig .tc) → Buf (Elt Ideal) ((c : Thread nD τ).loc b)) (c : Dev nD) (t : Fin cfg0.N) (r : Fin 5000) (k : Fin 128) (p : Fin 100000)
    (hp : p.val = win0_2.index t (0 : Fin 2) * 5000 + r.val) :
    (iblk0 V c 0 t : Vec Ideal S5000x128 .f32) (ix2 r k) = (V c main_arg0 : S100000x128.Idx → Elt Ideal .f32) (ix2 p k) := by
  obtain ⟨e0, e1, e2, e3, e4, e5⟩ := band_index0 t
  unfold iblk0
  show V c main_arg0 (((cfg0.win 0).blk t).view.emb (ix2 r k)) = V c main_arg0 (ix2 p k)
  refine congrArg (V c main_arg0) ?_
  funext a; apply Fin.ext
  match a with
  | ⟨0, _⟩ => show win0_0.index t (0 : Fin 2) * 5000 + 1 * r.val = p.val; omega
  | ⟨1, _⟩ => show win0_0.index t (1 : Fin 2) * 128 + 1 * k.val = k.val; omega

/-- The right operand's block at every point is the whole weight matrix. -/
theorem weights_block0 (V : (c : Dev nD) → (b : Ref sig .tc) → Buf (Elt Ideal) ((c : Thread nD τ).loc b)) (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨e0, e1, e2, e3, e4, e5⟩ := band_index0 t
  unfold iblk0
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is band `t` of the whole product: a row of the product depends on the same row of the
    left operand only, and the band's rows are read where the result's rows go. -/
theorem band_flushed0 (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.hidden (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := band_index0 t
  funext j
  obtain ⟨r, q, rfl⟩ : ∃ (r : Fin 5000) (q : Fin 128), j = ix2 r q := ⟨j 0, j 1, eq_ix2 j⟩
  have hp : win0_2.index t (0 : Fin 2) * 5000 + r.val < 100000 := by have := r.isLt; omega
  have hemb : ((cfg0.win 2).blk t).view.emb (ix2 r q)
      = (ix2 (⟨win0_2.index t (0 : Fin 2) * 5000 + r.val, hp⟩ : Fin 100000) q : S100000x128.Idx) := by
    funext a; apply Fin.ext
    match a with
    | ⟨0, _⟩ => show win0_2.index t (0 : Fin 2) * 5000 + 1 * r.val = win0_2.index t (0 : Fin 2) * 5000 + r.val; omega
    | ⟨1, _⟩ => show win0_2.index t (1 : Fin 2) * 128 + 1 * q.val = q.val; omega
  show k0_pay1 (iblk0 V c 0 t) (iblk0 V c 1 t) (ix2 r q)
    = Cert.Gcn.hidden (V c main_arg0) (V c main_arg2) (((cfg0.win 2).blk t).view.emb (ix2 r q))
  rw [hemb, Cert.Gcn.hidden_apply]
  refine (tile_product0 _ _ r q).trans (Finset.sum_congr rfl fun k _ => ?_)
  rw [rows_block0 V c t r k ⟨_, hp⟩ rfl, weights_block0 V c t k q]

/-- An index is in point `t`'s band iff each coordinate is in the band's range on its axis. -/
theorem mem_band0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The 20 bands of 5000 rows cover the 100000 rows: row `i` lies in band `i / 5000`. -/
theorem bands_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := band_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_band0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first layer's output array after the region is the whole product of the features with the weights. -/
theorem region0_array (V : (c : Dev nD) → (b : Ref sig .tc) → Buf (Elt Ideal) ((c : Thread nD τ).loc b)) (c : Dev nD) :
    (dat0 (F := Ideal) V c).arrAt 2 cfg0.N = Cert.Gcn.hidden (V c main_arg0) (V c main_arg2) :=
  (dat0 V c).arrAt_eq_of_cover 2 _ (fun t _ => band_flushed0 V c t) bands_cover0

end Cert.KernelIdeal.Tiles

end
-- ==== Proof.Region1.lean ====
/-
  The second dense layer, tile by tile. The region computes `relu(y) · w` for the first layer's output `y : [100000, 128]`
  and the weights `w : [128, 64]` in 20 bands of 5000 rows: at each point it takes the positive part of one band of `y`,
  entry by entry, multiplies it by the whole of `w`, and writes the result to the same band of the output. Entry `(p, q)`
  of `relu(y) · w` is `∑ k, max (y (p, k)) 0 * w (k, q)`, which reads row `p` of `y` and nothing else of it, so a band of
  rows of the result is the result for that band of rows; the bands tile the rows (row `i` lies in band `i / 5000`),
  hence the output array ends holding the whole of `relu(y) · w`.
-/
import proofs.«139008_j45938970198799_1_alg».proof.Proof.Gen.KernelIdeal.Frame
import proofs.«139008_j45938970198799_1_alg».proof.Proof.Dense
import proofs.«139008_j45938970198799_1_alg».proof.Proof.LibPlainProduct
import Idealize.ShloMosaic.Lib.Pipeline.Value

set_option maxRecDepth 16384

noncomputable section

namespace Cert.KernelIdeal.Tiles

open Idealize.ShloMosaic Idealize.ShloMosaic.TcCoe Idealize.ShloMosaic.ValueIdx Idealize.SL.Sem Cert.KernelIdeal Cert.KernelIdeal.Gen
open Idealize.ShloMosaic.Pipeline (Dat Cfg Window)

/-- The offsets of a whole-block access, however the two zeros are spelt. -/
theorem zero_offsets1 : (![0, 0] : Fin 2 → Nat) = fun _ => 0 := funext fun a => by fin_cases a <;> rfl

/-- The block indices over the 20 points: the row band of the left operand is the row band of the result, the right
    operand's block is the whole matrix at every point, no block moves along the columns, and the bands stay in range. -/
theorem band_index1 : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row bands is some point's. -/
theorem band_onto1 : ∀ q : Fin 20, ∃ t : Fin cfg1.N, win1_2.index t = ![q.val, 0] :=
  (by decide +kernel : ∀ q : Fin 20, ∃ t : Fin grid1.N, win1_2.index t = ![q.val, 0])

/-- One tile's result at `(r, q)`: the positive part of row `r` of the band against column `q` of the weights. The
    maximum against the zero word is taken entry by entry before the product, and the change of format is the
    identity on the extended reals. -/
theorem tile_product1 (x0 : Vec Ideal S5000x128 .f32) (x1 : Vec Ideal S128x64 .f32) (r : Fin 5000) (q : Fin 64) :
    k1_pay1 x0 x1 (ix2 r q)
      = ∑ k : Fin 128, FloatOps.maximumf (x0 (ix2 r k)) (Scalar.ofBits (F := Ideal) .f32 0x00000000#32) * x1 (ix2 k q) := by
  unfold k1_pay1
  refine (matmul_zero_plain_apply dot_S5000x128_S128x64_S5000x64_1_0_0_1_n_n rfl rfl rfl rfl rfl rfl none _ _ r q).trans
    (Finset.sum_congr rfl fun k _ => ?_)
  show FloatOps.maximumf (shapeCast S5000x128 x0 shapeCasts_S5000x128_S5000x128 (ix2 r k))
      (Scalar.ofBits (F := Ideal) .f32 0x00000000#32) * x1 (ix2 k q) = _
  rw [shapeCast_self]

/-- Row `r` of the left operand's band at point `t` is row `5000 · band + r` of the array. -/
theorem rows_block1 (V : (c : Dev nD) → (b : Ref sig .tc) → Buf (Elt Ideal) ((c : Thread nD τ).loc b)) (c : Dev nD) (t : Fin cfg1.N) (r : Fin 5000) (k : Fin 128) (p : Fin 100000)
    (hp : p.val = win1_2.index t (0 : Fin 2) * 5000 + r.val) :
    (iblk1 V c 0 t : Vec Ideal S5000x128 .f32) (ix2 r k) = (V c main_v46 : S100000x128.Idx → Elt Ideal .f32) (ix2 p k) := by
  obtain ⟨e0, e1, e2, e3, e4, e5⟩ := band_index1 t
  unfold iblk1
  show V c main_v46 (((cfg1.win 0).blk t).view.emb (ix2 r k)) = V c main_v46 (ix2 p k)
  refine congrArg (V c main_v46) ?_
  funext a; apply Fin.ext
  match a with
  | ⟨0, _⟩ => show win1_0.index t (0 : Fin 2) * 5000 + 1 * r.val = p.val; omega
  | ⟨1, _⟩ => show win1_0.index t (1 : Fin 2) * 128 + 1 * k.val = k.val; omega

/-- The right operand's block at every point is the whole weight matrix. -/
theorem weights_block1 (V : (c : Dev nD) → (b : Ref sig .tc) → Buf (Elt Ideal) ((c : Thread nD τ).loc b)) (c : Dev nD) (t : Fin cfg1.N) (k : Fin 128) (q : Fin 64) :
    (iblk1 V c 1 t : Vec Ideal S128x64 .f32) (ix2 k q) = (V c main_arg4 : S128x64.Idx → Elt Ideal .f32) (ix2 k q) := by
  obtain ⟨e0, e1, e2, e3, e4, e5⟩ := band_index1 t
  unfold iblk1
  show V c main_arg4 (((cfg1.win 1).blk t).view.emb (ix2 k q)) = V c main_arg4 (ix2 k q)
  refine congrArg (V c main_arg4) ?_
  funext a; apply Fin.ext
  match a with
  | ⟨0, _⟩ => show win1_1.index t (0 : Fin 2) * 128 + 1 * k.val = k.val; omega
  | ⟨1, _⟩ => show win1_1.index t (1 : Fin 2) * 64 + 1 * q.val = q.val; omega

/-- What point `t` writes back is band `t` of the whole result: a row of `relu(y) · w` depends on the same row of `y`
    only, and the band's rows are read where the result's rows go. -/
theorem band_flushed1 (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Gcn.reluOut (V c main_v46) (V c main_arg4)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S128x64) zero_offsets1]
  obtain ⟨e0, e1, e2, e3, e4, e5⟩ := band_index1 t
  funext j
  obtain ⟨r, q, rfl⟩ : ∃ (r : Fin 5000) (q : Fin 64), j = ix2 r q := ⟨j 0, j 1, eq_ix2 j⟩
  have hp : win1_2.index t (0 : Fin 2) * 5000 + r.val < 100000 := by have := r.isLt; omega
  have hemb : ((cfg1.win 2).blk t).view.emb (ix2 r q)
      = (ix2 (⟨win1_2.index t (0 : Fin 2) * 5000 + r.val, hp⟩ : Fin 100000) q : S100000x64.Idx) := by
    funext a; apply Fin.ext
    match a with
    | ⟨0, _⟩ => show win1_2.index t (0 : Fin 2) * 5000 + 1 * r.val = win1_2.index t (0 : Fin 2) * 5000 + r.val; omega
    | ⟨1, _⟩ => show win1_2.index t (1 : Fin 2) * 64 + 1 * q.val = q.val; omega
  show k1_pay1 (iblk1 V c 0 t) (iblk1 V c 1 t) (ix2 r q)
    = Cert.Gcn.reluOut (V c main_v46) (V c main_arg4) (((cfg1.win 2).blk t).view.emb (ix2 r q))
  rw [hemb, Cert.Gcn.reluOut_apply]
  refine (tile_product1 _ _ r q).trans (Finset.sum_congr rfl fun k _ => ?_)
  rw [rows_block1 V c t r k ⟨_, hp⟩ rfl, weights_block1 V c t k q]

/-- An index is in point `t`'s band iff each coordinate is in the band's range on its axis. -/
theorem mem_band1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- The 20 bands of 5000 rows cover the 100000 rows: row `i` lies in band `i / 5000`. -/
theorem bands_cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := band_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_band1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The second layer's output array after the region is the whole of `relu(y) · w`. -/
theorem region1_array (V : (c : Dev nD) → (b : Ref sig .tc) → Buf (Elt Ideal) ((c : Thread nD τ).loc b)) (c : Dev nD) :
    (dat1 (F := Ideal) V c).arrAt 2 cfg1.N = Cert.Gcn.reluOut (V c main_v46) (V c main_arg4) :=
  (dat1 V c).arrAt_eq_of_cover 2 _ (fun t _ => band_flushed1 V c t) bands_cover1

end Cert.KernelIdeal.Tiles

end
-- ==== Proof.RefValue.lean ====
/-
  The reference's result as the two message-passing steps around the two dense layers.

  Read one operation at a time, the reference computes `h₁ = x · W₁` by one `dot_general`, applies the hidden layer's
  step `agg128` to it, takes `h₂ = relu(·) · W₂` by a `maximum` against zero and a second `dot_general`, and applies the
  output layer's step `agg64`. It computes the edge weights twice, once per layer, by the same operations of the same
  edge list: the two are one term. A `dot_general` that contracts the left operand's columns with the right operand's
  rows is, at the extended reals, the plain sum `∑ k, l (p, k) * r (k, q)`; that is all the algebra there is.
-/
import proofs.«139008_j45938970198799_1_alg».proof.Proof.RefRead
import proofs.«139008_j45938970198799_1_alg».proof.Proof.Aggregate
import proofs.«139008_j45938970198799_1_alg».proof.Proof.Dense
import proofs.«139008_j45938970198799_1_alg».proof.Proof.LibPlainProduct

noncomputable section

namespace Cert.Gcn

open Idealize.ShloMosaic Cert.ReferenceIdeal Cert.ReferenceIdeal.Gen Cert.ReferenceIdeal.ReadP

/-- THE NETWORK: both layers as one function of the six arguments — node features `x0`, edge list `x1`, first weights and
    bias `x2 x3`, second weights and bias `x4 x5`. The edge lists and edge weights are the reference's own stages of `x1`
    (its source list, its destination list, and the product of the end points' inverse square root degrees). -/
def network (x0 : FArr S100000x128) (x1 : NArr S2x1600000) (x2 : FArr S128x128) (x3 : FArr S128)
    (x4 : FArr S128x64) (x5 : FArr S64) : FArr S100000x64 :=
  agg64 (reluOut (agg128 (hidden x0 x2) (val_main_v30 (F := Ideal) x1) (val_main_v3 (F := Ideal) x1)
            (val_main_v6 (F := Ideal) x1) x3) x4)
    (val_main_v30 (F := Ideal) x1) (val_main_v3 (F := Ideal) x1) (val_main_v6 (F := Ideal) x1) x5

end Cert.Gcn

namespace Cert.ReferenceIdeal.RefValue

open Idealize.ShloMosaic Idealize.ShloMosaic.ValueIdx
open Cert.ReferenceIdeal Cert.ReferenceIdeal.Gen Cert.ReferenceIdeal.ReadP Cert.Gcn

variable (x0 : FArr S100000x128) (x1 : NArr S2x1600000) (x2 : FArr S128x128) (x3 : FArr S128)
  (x4 : FArr S128x64) (x5 : FArr S64)

/-- The hidden layer's output is the step `agg128` of the first product, the edge weights and the edge lists. -/
theorem hidden_step :
    val_main_v46 (F := Ideal) x0 x1 x2 x3
      = agg128 (val_main_v7 (F := Ideal) x0 x2) (val_main_v30 (F := Ideal) x1) (val_main_v3 (F := Ideal) x1)
          (val_main_v6 (F := Ideal) x1) x3 := rfl

/-- The edge weights computed for the second layer are those computed for the first. -/
theorem weights_again : val_main_v71 (F := Ideal) x1 = val_main_v30 (F := Ideal) x1 := rfl

/-- The result is the step `agg64` of the second product, the (second) edge weights and the edge lists. -/
theorem output_step :
    val_main_v87 (F := Ideal) x0 x1 x2 x3 x4 x5
      = agg64 (val_main_v48 (F := Ideal) x0 x1 x2 x3 x4) (val_main_v71 (F := Ideal) x1) (val_main_v3 (F := Ideal) x1)
          (val_main_v6 (F := Ideal) x1) x5 := rfl

/-- The first `dot_general` is `x · W₁`. -/
theorem first_product : val_main_v7 (F := Ideal) x0 x2 = hidden x0 x2 := by
  funext i
  obtain ⟨p, q, rfl⟩ : ∃ (p : Fin 100000) (q : Fin 128), i = ix2 p q := ⟨i 0, i 1, eq_ix2 i⟩
  rw [hidden_apply]
  unfold val_main_v7
  exact dotGeneral_plain_apply _ rfl rfl rfl rfl rfl rfl none _ x0 x2 p q

/-- The `maximum` against zero followed by the second `dot_general` is `relu(y) · W₂` of the hidden layer's output `y`. -/
theorem second_product :
    val_main_v48 (F := Ideal) x0 x1 x2 x3 x4 = reluOut (val_main_v46 (F := Ideal) x0 x1 x2 x3) x4 := by
  funext i
  obtain ⟨p, q, rfl⟩ : ∃ (p : Fin 100000) (q : Fin 64), i = ix2 p q := ⟨i 0, i 1, eq_ix2 i⟩
  rw [reluOut_apply]
  unfold val_main_v48
  refine (dotGeneral_plain_apply _ rfl rfl rfl rfl rfl rfl none _ (val_main_v47 (F := Ideal) x0 x1 x2 x3) x4 p q).trans
    (Finset.sum_congr rfl fun k _ => ?_)
  -- the maximum is taken entry by entry, against a broadcast scalar zero: read both at the entry
  rw [val_main_v47_apply, val_main_call1_v0_apply]
  rfl

/-- THE REFERENCE'S VALUE: the network of the six arguments. -/
theorem value : val_main_v87 (F := Ideal) x0 x1 x2 x3 x4 x5 = network x0 x1 x2 x3 x4 x5 := by
  rw [output_step, weights_again, second_product, hidden_step, first_product]
  rfl

end Cert.ReferenceIdeal.RefValue

end
-- ==== Proof.KernelValue.lean ====
/-
  The idealized kernel's result, as the same function of the six arguments as the reference's.

  Walking the run's boundaries forward: the three early stretches leave the edge lists and edge weights (the reference's
  own stages of the edge-list argument); the first region leaves `x · W₁` in its output array (its 20 row bands tile the
  product); the stretch between the regions applies the hidden layer's step to it, with the carried edge data and the
  first bias; the second region leaves `relu(·) · W₂` of that; the last stretch applies the output layer's step, with the
  same carried edge data and the second bias. Each arrow is one lemma; nothing is opened twice.
-/
import proofs.«139008_j45938970198799_1_alg».proof.Proof.KernelHost
import proofs.«139008_j45938970198799_1_alg».proof.Proof.KernelEdges
import proofs.«139008_j45938970198799_1_alg».proof.Proof.Region0
import proofs.«139008_j45938970198799_1_alg».proof.Proof.Region1
import proofs.«139008_j45938970198799_1_alg».proof.Proof.RefValue

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gcn
open Cert.ReferenceIdeal.ReadP (val_main_v3 val_main_v6 val_main_v30)

variable (m : (ℓ : Loc nD τ sig) → Buf (Elt Ideal) ℓ) (ρ : Dev nD → PrngReg)

/-- After the first region its output array holds `x · W₁` of the launch contents. -/
theorem first_layer (c : Dev nD) :
    W4 m ρ c (Proc.devRef .tc main_v30)
      = hidden (m ((c : Thread nD τ).loc main_arg0)) (m ((c : Thread nD τ).loc main_arg2)) := by
  have h : W4 m ρ c (Proc.devRef .tc main_v30) = (dat0 (V3 m ρ) c).arrAt 2 cfg0.N := W4_arr m ρ c 2
  have e0 : V3 m ρ c main_arg0 = m ((c : Thread nD τ).loc main_arg0) := W3_arg0 m ρ c
  have e2 : V3 m ρ c main_arg2 = m ((c : Thread nD τ).loc main_arg2) := W3_arg2 m ρ c
  rw [h, Tiles.region0_array (V3 m ρ) c, e0, e2]

/-- At the second region's entry the hidden layer's output is the step `agg128` of `x · W₁`. -/
theorem hidden_output (c : Dev nD) :
    W5 m ρ c (Proc.devRef .tc main_v46)
      = agg128 (hidden (m ((c : Thread nD τ).loc main_arg0)) (m ((c : Thread nD τ).loc main_arg2)))
          (val_main_v30 (F := Ideal) (m ((c : Thread nD τ).loc main_arg1)))
          (val_main_v3 (F := Ideal) (m ((c : Thread nD τ).loc main_arg1)))
          (val_main_v6 (F := Ideal) (m ((c : Thread nD τ).loc main_arg1)))
          (m ((c : Thread nD τ).loc main_arg3)) := by
  have h : W5 m ρ c (Proc.devRef .tc main_v46) = _ := hidden_stretch (W4 m ρ c)
  rw [h, first_layer m ρ c, W4_v29 m ρ c, W4_v3 m ρ c, W4_v6 m ρ c, W4_arg3 m ρ c, weights_at_entry m ρ c,
    src_at_entry m ρ c, dst_at_entry m ρ c]

/-- After the second region its output array holds `relu(·) · W₂` of the hidden layer's output. -/
theorem second_layer (c : Dev nD) :
    W6 m ρ c (Proc.devRef .tc main_v47)
      = reluOut (agg128 (hidden (m ((c : Thread nD τ).loc main_arg0)) (m ((c : Thread nD τ).loc main_arg2)))
            (val_main_v30 (F := Ideal) (m ((c : Thread nD τ).loc main_arg1)))
            (val_main_v3 (F := Ideal) (m ((c : Thread nD τ).loc main_arg1)))
            (val_main_v6 (F := Ideal) (m ((c : Thread nD τ).loc main_arg1)))
            (m ((c : Thread nD τ).loc main_arg3)))
          (m ((c : Thread nD τ).loc main_arg4)) := by
  have h : W6 m ρ c (Proc.devRef .tc main_v47) = (dat1 (V5 m ρ) c).arrAt 2 cfg1.N := W6_arr m ρ c 2
  have e46 : V5 m ρ c main_v46 = _ := hidden_output m ρ c
  have e4 : V5 m ρ c main_arg4 = m ((c : Thread nD τ).loc main_arg4) := W5_arg4 m ρ c
  rw [h, Tiles.region1_array (V5 m ρ) c, e46, e4]

/-- THE KERNEL'S VALUE: the result buffer at the last boundary is the network of the six launch arrays. -/
theorem value (c : Dev nD) :
    W7 m ρ c (Proc.devRef .tc main_v63)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have h : W7 m ρ c (Proc.devRef .tc main_v63) = _ := output_stretch (W6 m ρ c)
  rw [h, second_layer m ρ c, W6_v29 m ρ c, W6_v3 m ρ c, W6_v6 m ρ c, W6_arg5 m ρ c, weights_at_entry m ρ c,
    src_at_entry m ρ c, dst_at_entry m ρ c]
  rfl

end Cert.KernelIdeal.Whole

end
-- ==== Proof.lean ====
/-
  A two-layer graph convolution: the tiled kernel against the plain reference, on the extended reals.

  Both programs compute `out = A (relu (A (x W₁) + b₁) W₂) + b₂` where `A h` gathers row `src e` of `h` for each of the
  1700000 edges (the given ones and a self loop per node), scales it by the edge's weight (the product of its end
  points' inverse square root degrees), and sums it into row `dst e`. The reference does every step on the host. The
  kernel does the two dense products `x W₁` and `relu(·) W₂` as pipelined regions over 20 bands of 5000 rows, in a
  narrower float format for the matrix unit, and the rest on the host; it computes the edge weights once where the
  reference computes them once per layer.

  At the exact extended reals a change of float format is the identity, the matrix unit's product into a zero
  accumulator and the host's `dot_general` are both the plain sum `∑ k, l (p, k) * r (k, q)`, and a row of a product
  depends on the same row of the left operand only — so the banded products are the whole products (Region0, Region1).
  The message-passing steps are the same operations on both sides and are never opened: the certificate shows that the
  same features, edge weights, edge lists and bias enter them (Aggregate, KernelHost, KernelEdges, KernelValue on the
  kernel's side; RefValue on the reference's). No step uses the finiteness of the inputs: sums are only re-indexed,
  never re-associated across an infinity. The rewrite ledger between the kernel and its idealization is empty.
-/
import proofs.«139008_j45938970198799_1_alg».proof.Defs
import proofs.«139008_j45938970198799_1_alg».proof.Proof.Gen.Kernel
import proofs.«139008_j45938970198799_1_alg».proof.Proof.Gen.Kernel.Skeleton
import proofs.«139008_j45938970198799_1_alg».proof.Proof.Gen.Kernel.Launch
import proofs.«139008_j45938970198799_1_alg».proof.Proof.Gen.Kernel.Points
import proofs.«139008_j45938970198799_1_alg».proof.Proof.Gen.Kernel.Frame
import proofs.«139008_j45938970198799_1_alg».proof.Proof.Gen.KernelIdeal
import proofs.«139008_j45938970198799_1_alg».proof.Proof.Gen.KernelIdeal.Skeleton
import proofs.«139008_j45938970198799_1_alg».proof.Proof.Gen.KernelIdeal.Launch
import proofs.«139008_j45938970198799_1_alg».proof.Proof.Gen.KernelIdeal.Points
import proofs.«139008_j45938970198799_1_alg».proof.Proof.Gen.KernelIdeal.Frame
import proofs.«139008_j45938970198799_1_alg».proof.Proof.Gen.ReferenceIdeal
import proofs.«139008_j45938970198799_1_alg».proof.Proof.RefRun
import proofs.«139008_j45938970198799_1_alg».proof.Proof.RefRead
import proofs.«139008_j45938970198799_1_alg».proof.Proof.Gen.Pre_finite_inputs
import proofs.«139008_j45938970198799_1_alg».proof.Proof.KernelRun
import proofs.«139008_j45938970198799_1_alg».proof.Proof.KernelValue
import proofs.«139008_j45938970198799_1_alg».proof.Proof.RefValue
import Idealize.ShloMosaic.Adequacy
import Idealize.ShloMosaic.Init

noncomputable section

namespace Cert.Proof

open Idealize.ShloMosaic Idealize.SL.Sem

/-- The kernel as printed runs, and gives its arguments back: the generated frame of its two regions and five host
    stretches. -/
theorem frame_kernel : Cert.frame_Kernel := fun m ρ _ => Cert.Kernel.Gen.frame m ρ

/-- The same for the idealized kernel. -/
theorem frame_kernel_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both programs end with the network of those arguments in their
    result buffer: the kernel by its run read boundary by boundary, the reference by its run read operation by
    operation. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.value m ρ c), (h c).2⟩)
      (Cert.KernelIdeal.Whole.run_named m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v87_eq, Cert.ReferenceIdeal.RefValue.value,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
